-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1200000 : S_.BroadcastsInDim S1200000 (![] : Fin 0 → Fin S1200000.rank)
  reducesTo_S1200000_S_d0 : S1200000.ReducesTo [0] S_

variable [Facts]

def fn_part1 {F : FTy → Type} [FloatOps F] (main_v13 : IVec S_ 1) (main_v15 : IVec S1200000 1) (main_c_5 : IVec S_ 1) : IVec S_ 1 :=
  let main_v16 : IVec S_ 1 := (fun x v => Host.reduce IntOp.andi x v reducesTo_S1200000_S_d0 h_S_) main_v15 main_c_5
  let main_v17 : IVec S_ 1 := andi main_v13 main_v16
  main_v17

def fn {F : FTy → Type} [FloatOps F] (main_arg0 : FVec F S100000x64 .f32) (main_arg1 : IVec S1200000 32) (main_arg2 : IVec S1200000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S1200000 32 := broadcastInDim S1200000 ![] bcast_S_S1200000 main_c_4
  let main_v15 : IVec S1200000 1 := cmpi .sge main_arg2 main_v14
  let main_c_5 : IVec S_ 1 := constantI S_ 1 1#1
  fn_part1 (F := F) main_v13 main_v15 main_c_5
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S1x64 : Shape := ⟨2, ![1, 64]⟩

abbrev nBuf : Space → Nat
  | .hbm => 42
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S100000x64, .bf16⟩
  | .hbm, ⟨6, _⟩ => ⟨S_, .i32⟩
  | .hbm, ⟨7, _⟩ => ⟨S1200000, .i32⟩
  | .hbm, ⟨8, _⟩ => ⟨S1200000, .i1⟩
  | .hbm, ⟨9, _⟩ => ⟨S_, .i32⟩
  | .hbm, ⟨10, _⟩ => ⟨S1200000, .i32⟩
  | .hbm, ⟨11, _⟩ => ⟨S1200000, .i32⟩
  | .hbm, ⟨12, _⟩ => ⟨S1200000, .i32⟩
  | .hbm, ⟨13, _⟩ => ⟨S1200000x1, .i32⟩
  | .hbm, ⟨14, _⟩ => ⟨S1200000x64, .bf16⟩
  | .hbm, ⟨15, _⟩ => ⟨S1200000x64, .f32⟩
  | .hbm, ⟨16, _⟩ => ⟨S_, .f32⟩
  | .hbm, ⟨17, _⟩ => ⟨S100000x64, .f32⟩
  | .hbm, ⟨18, _⟩ => ⟨S_, .i32⟩
  | .hbm, ⟨19, _⟩ => ⟨S1200000, .i32⟩
  | .hbm, ⟨20, _⟩ => ⟨S1200000, .i1⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1200000, .i32⟩
  | .hbm, ⟨25, _⟩ => ⟨S1200000x1, .i32⟩
  | .hbm, ⟨26, _⟩ => ⟨S100000x64, .f32⟩
  | .hbm, ⟨27, _⟩ => ⟨S_, .f32⟩
  | .hbm, ⟨28, _⟩ => ⟨S1200000, .f32⟩
  | .hbm, ⟨29, _⟩ => ⟨S_, .f32⟩
  | .hbm, ⟨30, _⟩ => ⟨S100000, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S100000, .f32⟩
  | .hbm, ⟨40, _⟩ => ⟨S100000x1, .f32⟩
  | .hbm, ⟨41, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S5000x64_S64x64_S5000x64_1_1_0_0_n_n_wf : DotDims.WF S5000x64 S64x64 S5000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S5000x64_S64x64_S5000x64_1_1_0_0_n_n : DotDims S5000x64 S64x64 S5000x64 where
  lhsContracting := [1]
  rhsContracting := [1]
  lhsNonContracting := [0]
  rhsNonContracting := [0]
  lhsBatch := []
  rhsBatch := []
  wf := dot_S5000x64_S64x64_S5000x64_1_1_0_0_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1200000, .i32⟩
  | .hbm, ⟨7, _⟩ => ⟨S1200000, .i1⟩
  | .hbm, ⟨8, _⟩ => ⟨S_, .i32⟩
  | .hbm, ⟨9, _⟩ => ⟨S1200000, .i32⟩
  | .hbm, ⟨10, _⟩ => ⟨S1200000, .i32⟩
  | .hbm, ⟨11, _⟩ => ⟨S1200000, .i32⟩
  | .hbm, ⟨12, _⟩ => ⟨S1200000x1, .i32⟩
  | .hbm, ⟨13, _⟩ => ⟨S1200000x64, .f32⟩
  | .hbm, ⟨14, _⟩ => ⟨S_, .f32⟩
  | .hbm, ⟨15, _⟩ => ⟨S100000x64, .f32⟩
  | .hbm, ⟨16, _⟩ => ⟨S1200000x1, .i32⟩
  | .hbm, ⟨17, _⟩ => ⟨S100000x64, .f32⟩
  | .hbm, ⟨18, _⟩ => ⟨S_, .f32⟩
  | .hbm, ⟨19, _⟩ => ⟨S1200000, .f32⟩
  | .hbm, ⟨20, _⟩ => ⟨S_, .f32⟩
  | .hbm, ⟨21, _⟩ => ⟨S100000, .f32⟩
  | .hbm, ⟨22, _⟩ => ⟨S1200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S1x64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_1_0_0_n_n_wf : DotDims.WF S100000x64 S64x64 S100000x64 [1] [1] [0] [0] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_1_0_0_n_n : DotDims S100000x64 S64x64 S100000x64 where
  lhsContracting := [1]
  rhsContracting := [1]
  lhsNonContracting := [0]
  rhsNonContracting := [0]
  lhsBatch := []
  rhsBatch := []
  wf := dot_S100000x64_S64x64_S100000x64_1_1_0_0_n_n_wf

class Facts : Prop extends Facts₀ where

variable [Facts]
-- ==== Proof.Domain.lean ====
/-
  What the precondition says of the destination indices.

  The precondition is a conjunction of four `all`s: the three float inputs are finite everywhere, and every
  destination index is at least zero (read signed). The last conjunct, read back entry by entry, is the one fact the
  comparison of the two programs uses: a non-negative destination index is left alone by the wrap-around of negative
  indices, so both programs scatter by the same index vector. (The finiteness conjuncts are not used: the two programs
  compute the same expression, with no rearrangement that an infinity could break.)
-/
import proofs.«132022_j35579509080730_2_alg».proof.Proof.Gen.Pre_finite_inputs
import Idealize.ShloMosaic.Lib.ReduceAll
import Idealize.ShloMosaic.Lib.ValueIdx
import Idealize.ShloMosaic.Lib.Pipeline.Value

noncomputable section

open Idealize.ShloMosaic

namespace Cert.Pre_finite_inputs.Domain

open Cert.Pre_finite_inputs Cert.Pre_finite_inputs.Facts

instance : Subsingleton S_.Idx := ⟨fun _ _ => funext fun d => d.elim0⟩

/-- Where the precondition holds every destination index (the third argument) is non-negative. -/
theorem dst_nonneg {F : FTy → Type} [FloatOps F] (a0 : FVec F S100000x64 .f32) (a1 a2 : IVec S1200000 32)
    (a3 : FVec F S64x64 .f32) (a4 : FVec F S64 .f32) (h : fn (F := F) a0 a1 a2 a3 a4 = fun _ => 1#1) (e : S1200000.Idx) :
    0 ≤ (a2 e).toInt := by
  have h0 := congrFun h ValueIdx.ix0
  dsimp only [fn, fn_part1] at h0
  obtain ⟨-, h2⟩ := IntOp.andi_eq_one.1 h0
  have h3 := Host.reduce_andi_all _ _ _ _ _ h2 e
  have h4 := IntOp.cmpi_sge.1 h3
  have hb : broadcastInDim S1200000 ![] bcast_S_S1200000 (constantI S_ 32 0#32) e = 0#32 :=
    broadcastInDim_apply _ bcast_S_S1200000 (constantI S_ 32 0#32) e (fun a => a.elim0) (fun a => a.elim0)
  rw [hb] at h4
  have hz : (0#32 : BitVec 32).toInt = 0 := by decide
  rw [hz] at h4
  exact h4

end Cert.Pre_finite_inputs.Domain

end
-- ==== Proof.HostSide.lean ====
/-
  The two arrays the host hands to the kernel, and that they are the reference's own.

  Before the kernel is launched the host program gathers, for every edge, the feature row of the edge's source
  node and adds it into the row of the edge's destination node (the aggregated features, [100000, 64]), and adds
  a one per edge into the destination's entry of a vector (the in-degrees, [100000]), which it then views as a
  column [100000, 1]. The reference computes the same two sums. Two things differ in the spelling:

  • the kernel's host program reads the feature matrix through a narrowing to bf16 and a widening back, which on
    the extended reals are both the identity, so the gathered rows are the same rows;
  • the kernel's host program first replaces a NEGATIVE destination index `d` by `d + 100000` (Python's wrap-around
    for `x.at[d]`), the reference scatters by `d` as it stands. Where every destination index is non-negative
    the replacement changes nothing, and the two scatters have the same index vector.

  So, for destination indices that are all non-negative, the kernel's two input arrays are exactly the
  reference's intermediate arrays, as whole arrays; no entry of a gather or a scatter is ever looked at.
-/
import proofs.«132022_j35579509080730_2_alg».proof.Proof.Gen.KernelIdeal.Frame
import proofs.«132022_j35579509080730_2_alg».proof.Proof.Gen.ReferenceIdeal.Read
import Idealize.ShloMosaic.Lib.StableHlo.Run
import Idealize.ShloMosaic.Lib.Affine

noncomputable section

open Idealize.ShloMosaic Idealize.ShloMosaic.TcCoe Idealize.SL.Sem

namespace Cert.KernelIdeal.HostSide

open Cert.KernelIdeal Cert.KernelIdeal.Gen

/-- A destination index with Python's wrap-around applied: `d + 100000` where `d < 0`, else `d`. -/
def wrapped (x : IVec S1200000 32) : IVec S1200000 32 :=
  select (cmpi .slt x (broadcastInDim S1200000 ![] bcast_S_S1200000 (constantI S_ 32 0#32)))
    (addi x (broadcastInDim S1200000 ![] bcast_S_S1200000 (constantI S_ 32 100000#32))) x

/-- Where every index is non-negative the wrap-around is the identity. -/
theorem wrapped_of_nonneg (x : IVec S1200000 32) (h : ∀ e : S1200000.Idx, 0 ≤ (x e).toInt) : wrapped x = x := by
  funext e
  have hc : IntOp.cmpi .slt (x e) (0#32) ≠ 1#1 := fun hc => by
    have := IntOp.cmpi_slt.1 hc
    have h0 : (0#32 : BitVec 32).toInt = 0 := by decide
    have := h e
    omega
  show Scalar.select (IntOp.cmpi .slt (x e) (0#32)) _ (x e) = x e
  rcases BitVec.eq_zero_or_eq_one (IntOp.cmpi .slt (x e) (0#32)) with h0 | h1
  · rw [h0]; rfl
  · exact absurd h1 hc

/-- The aggregated features as the kernel's host program computes them from the feature matrix `x0`, the
    source indices `x1` and the destination indices `x2`. -/
def summed (x0 : FVec Ideal S100000x64 .f32) (x1 x2 : IVec S1200000 32) : FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 (wrapped x2))
    (extf .f32
      (Host.gather gather_S100000x64_S1200000x1_S1200000x64_1_0_n_n_0_1_164
        (truncf .bf16 x0 bitsLt_bf16_f32)
        (broadcastInDim S1200000x1 ![0] bcast_S1200000_S1200000x1_0 (wrapped x1)))
      bitsLt_bf16_f32)

/-- The in-degrees as the kernel's host program computes them. -/
def degree (x2 : IVec S1200000 32) : FVec Ideal S100000 .f32 :=
  Host.scatterAdd scatter_S100000_S1200000x1_S1200000_n_0_0_1
    (broadcastInDim S100000 ![] bcast_S_S100000 (constant (F := Ideal) S_ .f32 0x00000000#32))
    (broadcastInDim S1200000x1 ![0] bcast_S1200000_S1200000x1_0 (wrapped x2))
    (broadcastInDim S1200000 ![] bcast_S_S1200000 (constant (F := Ideal) S_ .f32 0x3F800000#32))

variable (m : (ℓ : Loc nD τ sig) → Buf (Elt Ideal) ℓ)

set_option maxHeartbeats 2000000 in
/-- The array the kernel's first window stands on, as the region finds it. -/
theorem V_summed (c : Dev nD) :
    (V m c main_v16 : S100000x64.Idx → EReal)
      = summed (m ((c : Thread nD τ).loc main_arg0)) (m ((c : Thread nD τ).loc main_arg1)) (m ((c : Thread nD τ).loc main_arg2)) := by
  dsimp only [Gen.V, Gen.hostOps0]
  after_results_simp
  rfl

set_option maxHeartbeats 2000000 in
/-- The array the kernel's second window stands on: the in-degrees viewed as a column. -/
theorem V_degree (c : Dev nD) :
    (V m c main_v26 : S100000x1.Idx → EReal)
      = shapeCast S100000x1 (degree (m ((c : Thread nD τ).loc main_arg2))) shapeCasts_S100000_S100000x1 := by
  dsimp only [Gen.V, Gen.hostOps0]
  after_results_simp
  rfl

/-- With non-negative destination indices the kernel's aggregated features are the reference's. -/
theorem summed_eq_ref (x0 : FVec Ideal S100000x64 .f32) (x1 x2 : IVec S1200000 32) (h : ∀ e : S1200000.Idx, 0 ≤ (x2 e).toInt) :
    summed x0 x1 x2 = Cert.ReferenceIdeal.Read.val_main_v9 (F := Ideal) x0 x1 x2 := by
  unfold summed
  rw [wrapped_of_nonneg x2 h]
  rfl

/-- With non-negative destination indices the kernel's in-degrees are the reference's. -/
theorem degree_eq_ref (x2 : IVec S1200000 32) (h : ∀ e : S1200000.Idx, 0 ≤ (x2 e).toInt) :
    degree x2 = Cert.ReferenceIdeal.Read.val_main_v13 (F := Ideal) x2 := by
  unfold degree
  rw [wrapped_of_nonneg x2 h]
  rfl

end Cert.KernelIdeal.HostSide

end
-- ==== Proof.Spec.lean ====
/-
  One layer of a graph convolution with mean aggregation, entry by entry, on the extended reals.

  A node's aggregated feature row `S p` (the sum of its in-neighbours' rows) is divided by the node's
  in-degree `D p`, raised to at least one so that an isolated node keeps the zero row; the mean row goes
  through a linear layer whose weight matrix `W` is stored output row by output row, a bias `b` is
  added and the result is cut off below at zero:

      out (p, q) = max ( Σ_k  (S (p, k) / max (D p) 1) · W (q, k)  +  b q ,  0 ).

  The entry is written once, for a matrix of any number of rows, so that a block of rows and the whole
  matrix are the same function: an entry depends on row `p` of `S` and on `D p` only (`entry_congr`).
  The float words 1.0 and 0.0 are kept as words: both sides of the comparison carry the same ones.
  Nothing here mentions a program.
-/
import Idealize.ShloMosaic.PureOps.Ideal.Laws
import Idealize.ShloMosaic.Lib.ValueIdx

noncomputable section

namespace Cert.GcnHead

open Idealize.ShloMosaic Idealize.ShloMosaic.ValueIdx

/-- Entry `(p, q)` of the layer's output from the aggregated rows `S`, the in-degrees `D`, the weights `W`
    (row `q` holds output feature `q`'s weights) and the bias `b`. -/
def entry {n : ℕ} (S : (⟨2, ![n, 64]⟩ : Shape).Idx → EReal) (D : Fin n → EReal)
    (W : (⟨2, ![64, 64]⟩ : Shape).Idx → EReal) (b : (⟨1, ![64]⟩ : Shape).Idx → EReal) (p : Fin n) (q : Fin 64) : EReal :=
  max ((∑ k : Fin 64, Ideal.div (S (ix2 p k)) (max (D p) (Ideal.ofBits .f32 0x3F800000#32)) * W (ix2 q k)) + b (ix1 q))
    (Ideal.ofBits .f32 0x00000000#32)

/-- An entry reads row `p` of the aggregated features and the degree of node `p`, nothing else: two
    matrices that agree on that row, with equal degrees there, give the same entry. -/
theorem entry_congr {n n' : ℕ} (S : (⟨2, ![n, 64]⟩ : Shape).Idx → EReal) (D : Fin n → EReal)
    (S' : (⟨2, ![n', 64]⟩ : Shape).Idx → EReal) (D' : Fin n' → EReal)
    (W : (⟨2, ![64, 64]⟩ : Shape).Idx → EReal) (b : (⟨1, ![64]⟩ : Shape).Idx → EReal) (p : Fin n) (p' : Fin n') (q : Fin 64)
    (hS : ∀ k : Fin 64, S (ix2 p k) = S' (ix2 p' k)) (hD : D p = D' p') :
    entry S D W b p q = entry S' D' W b p' q := by
  unfold entry
  rw [hD]
  simp only [hS]

/-- The whole output matrix of a graph of 100000 nodes: entry `(i 0, i 1)` at the index `i`; the
    degrees come as a vector. -/
def layer (S : (⟨2, ![100000, 64]⟩ : Shape).Idx → EReal) (D : (⟨1, ![100000]⟩ : Shape).Idx → EReal)
    (W : (⟨2, ![64, 64]⟩ : Shape).Idx → EReal) (b : (⟨1, ![64]⟩ : Shape).Idx → EReal) :
    (⟨2, ![100000, 64]⟩ : Shape).Idx → EReal :=
  fun i => entry S (fun r : Fin 100000 => D (ix1 r)) W b (i 0) (i 1)

theorem layer_apply (S : (⟨2, ![100000, 64]⟩ : Shape).Idx → EReal) (D : (⟨1, ![100000]⟩ : Shape).Idx → EReal)
    (W : (⟨2, ![64, 64]⟩ : Shape).Idx → EReal) (b : (⟨1, ![64]⟩ : Shape).Idx → EReal) (p : Fin 100000) (q : Fin 64) :
    layer S D W b (ix2 p q) = entry S (fun r : Fin 100000 => D (ix1 r)) W b p q := rfl

/-- The same matrix when the degrees come as a column `[100000, 1]`: node `r`'s degree is the column's entry `(r, 0)`. -/
def layerCol (S : (⟨2, ![100000, 64]⟩ : Shape).Idx → EReal) (Dc : (⟨2, ![100000, 1]⟩ : Shape).Idx → EReal)
    (W : (⟨2, ![64, 64]⟩ : Shape).Idx → EReal) (b : (⟨1, ![64]⟩ : Shape).Idx → EReal) :
    (⟨2, ![100000, 64]⟩ : Shape).Idx → EReal :=
  fun i => entry S (fun r : Fin 100000 => Dc (ix2 r (0 : Fin 1))) W b (i 0) (i 1)

theorem layerCol_apply (S : (⟨2, ![100000, 64]⟩ : Shape).Idx → EReal) (Dc : (⟨2, ![100000, 1]⟩ : Shape).Idx → EReal)
    (W : (⟨2, ![64, 64]⟩ : Shape).Idx → EReal) (b : (⟨1, ![64]⟩ : Shape).Idx → EReal) (p : Fin 100000) (q : Fin 64) :
    layerCol S Dc W b (ix2 p q) = entry S (fun r : Fin 100000 => Dc (ix2 r (0 : Fin 1))) W b p q := rfl

end Cert.GcnHead

end
-- ==== Proof.LibRowsByRows.lean ====
/-
  Two layout facts and one product that an attention kernel's block meets, each read at an index written by its coordinates.

  A block `[1, 1, a, b]` that carries one batch and one head is cast to the matrix `[a, b]` (and a result matrix back):
  both casts keep the row-major position, so entry `(i, j)` of the matrix is entry `(0, 0, i, j)` of the block. The
  scores `q · kᵀ` are a product of an `[m, K]` matrix with an `[n, K]` matrix contracting the two SECOND axes (the keys are
  stored row by row, not transposed): at the ideal values, into the zero splat, entry `(p, q)` is the inner product of row
  `p` of the left operand with row `q` of the right one, `Σ_k l(p, k) · r(q, k)`. The record is given literally over any
  well-formedness witness, so a printed record of that form is an instance by unfolding its name. Nothing here mentions a
  program.
-/
import Idealize.ShloMosaic.PureOps.Ideal.Laws
import Idealize.ShloMosaic.Lib.Pipeline.Value
import Idealize.ShloMosaic.Lib.ValueIdx

noncomputable section

namespace Cert.RowsByRows

open Idealize.ShloMosaic Idealize.ShloMosaic.ValueIdx

/-! ## Two unit axes dropped or added by a shape cast -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-! ## A product with the right operand's rows: axis 1 contracted with axis 1 -/

/-- The literal record of an `[m, K] × [n, K]` product contracting the two second axes. -/
abbrev rowsByRows {m K n : ℕ}
    (wf : DotDims.WF (⟨2, ![m, K]⟩ : Shape) (⟨2, ![n, K]⟩ : Shape) (⟨2, ![m, n]⟩ : Shape) [1] [1] [0] [0] [] []) :
    DotDims (⟨2, ![m, K]⟩ : Shape) (⟨2, ![n, K]⟩ : Shape) (⟨2, ![m, n]⟩ : Shape) :=
  { lhsContracting := [1], rhsContracting := [1], lhsNonContracting := [0], rhsNonContracting := [0],
    lhsBatch := [], rhsBatch := [], wf := wf }

section
variable {m K n : ℕ}
  (wf : DotDims.WF (⟨2, ![m, K]⟩ : Shape) (⟨2, ![n, K]⟩ : Shape) (⟨2, ![m, n]⟩ : Shape) [1] [1] [0] [0] [] [])
  (j : (⟨2, ![m, n]⟩ : Shape).Idx) (k : (rowsByRows wf).contr.Idx)

/-- The left operand's row is the result's row. -/
theorem rbr_lhs_row : ((rowsByRows wf).lhsIdx j k 0).val = (j 0).val := by
  unfold DotDims.lhsIdx
  rw [dif_neg (show ¬(0 : Fin (⟨2, ![m, K]⟩ : Shape).rank) ∈ (rowsByRows wf).lhsBatch from List.not_mem_nil),
    dif_pos (show (0 : Fin (⟨2, ![m, K]⟩ : Shape).rank) ∈ (rowsByRows wf).lhsNonContracting from List.mem_singleton.mpr rfl)]
  rfl

/-- The left operand's column is the contracted coordinate. -/
theorem rbr_lhs_col : ((rowsByRows wf).lhsIdx j k 1).val = (k ⟨0, Nat.one_pos⟩).val :=
  (rowsByRows wf).lhsIdx_val_of_single rfl j k

/-- The right operand's row is the result's column. -/
theorem rbr_rhs_row : ((rowsByRows wf).rhsIdx j k 0).val = (j 1).val := by
  unfold DotDims.rhsIdx
  rw [dif_neg (show ¬(0 : Fin (⟨2, ![n, K]⟩ : Shape).rank) ∈ (rowsByRows wf).rhsBatch from List.not_mem_nil),
    dif_pos (show (0 : Fin (⟨2, ![n, K]⟩ : Shape).rank) ∈ (rowsByRows wf).rhsNonContracting from List.mem_singleton.mpr rfl)]
  rfl

/-- The right operand's column is the contracted coordinate. -/
theorem rbr_rhs_col : ((rowsByRows wf).rhsIdx j k 1).val = (k ⟨0, Nat.one_pos⟩).val :=
  (rowsByRows wf).rhsIdx_val_of_single rfl j k

end

/-- Entry (p, q) of the product into the zero splat is the inner product of row p of the left operand with row q of
    the right one. -/
theorem matmul_rowsByRows_apply {m K n : ℕ} {φ₁ φ₂ : FTy}
    (wf : DotDims.WF (⟨2, ![m, K]⟩ : Shape) (⟨2, ![n, K]⟩ : Shape) (⟨2, ![m, n]⟩ : Shape) [1] [1] [0] [0] [] [])
    (prec : Option ContractPrecision)
    (l : FVec Ideal (⟨2, ![m, K]⟩ : Shape) φ₁) (r : FVec Ideal (⟨2, ![n, K]⟩ : Shape) φ₂) (p : Fin m) (q : Fin n) :
    FloatOps.matmul (rowsByRows wf) prec l r (constant (⟨2, ![m, n]⟩ : Shape) .f32 0x00000000#32) (ix2 p q)
      = ∑ k : Fin K, l (ix2 p k) * r (ix2 q k) := by
  rw [Ideal.matmul_constant_zero_apply]
  rw [← Equiv.sum_comp (contrEquiv1 (rowsByRows wf) K rfl rfl).symm]
  refine Finset.sum_congr rfl fun k _ => ?_
  have hk := contrEquiv1_symm_val (rowsByRows wf) K rfl rfl k
  have el : (rowsByRows wf).lhsIdx (ix2 p q) ((contrEquiv1 (rowsByRows wf) K rfl rfl).symm k) = ix2 p k :=
    funext fun a => Fin.ext (by
      match a with
      | ⟨0, _⟩ => exact rbr_lhs_row wf _ _
      | ⟨1, _⟩ => exact (rbr_lhs_col wf _ _).trans hk)
  have er : (rowsByRows wf).rhsIdx (ix2 p q) ((contrEquiv1 (rowsByRows wf) K rfl rfl).symm k) = ix2 q k :=
    funext fun a => Fin.ext (by
      match a with
      | ⟨0, _⟩ => exact rbr_rhs_row wf _ _
      | ⟨1, _⟩ => exact (rbr_rhs_col wf _ _).trans hk)
  rw [el, er]

end Cert.RowsByRows

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.Payload.lean ====
/-
  What the kernel's body stores, read at an entry.

  On a block of 5000 node rows the body divides each aggregated row by its node's in-degree raised to at least
  one (the degree column [5000, 1] laid along the 64 features), multiplies the mean rows with the weight matrix
  contracting the two feature axes (the weights are stored output row by output row), adds the bias laid along the
  rows and takes the maximum with zero. The two narrowings to bf16 in front of the product are the identity on the
  extended reals, and the product into the zero matrix is the plain sum of products. So entry (p, q) of the stored
  block is the layer's entry (p, q) of the block's own rows and degrees.
-/
import proofs.«132022_j35579509080730_2_alg».proof.Proof.Gen.KernelIdeal.Skeleton
import proofs.«132022_j35579509080730_2_alg».proof.Proof.Spec
import proofs.«132022_j35579509080730_2_alg».proof.Proof.LibRowsByRows
import proofs.«132022_j35579509080730_2_alg».proof.Proof.LibKeepdims
import proofs.«132022_j35579509080730_2_alg».proof.Proof.LibRowVector
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- Entry (p, q) of the block the body stores, from the block `x0` of aggregated rows, the block `x1` of the degree
    column, the weights `x2` and the bias `x3`: the layer's entry, with node `r`'s degree read at (r, 0). -/
theorem pay_apply (x0 : FVec Ideal S5000x64 .f32) (x1 : FVec Ideal S5000x1 .f32) (x2 : FVec Ideal S64x64 .f32) (x3 : FVec Ideal S64 .f32)
    (p : Fin 5000) (q : Fin 64) :
    k0_pay1 (F := Ideal) x0 x1 x2 x3 (ix2 p q) = Cert.GcnHead.entry x0 (fun r : Fin 5000 => x1 (ix2 r (0 : Fin 1))) x2 x3 p q := by
  unfold k0_pay1 Cert.GcnHead.entry
  simp only [shapeCast_self, maximumf_apply, addf_apply, broadcast_apply, matmul]
  unfold dot_S5000x64_S64x64_S5000x64_1_1_0_0_n_n
  rw [Cert.RowsByRows.matmul_rowsByRows_apply, broadcastTo_1b_ab_apply, Cert.RowVector.shapeCast_b_1b_apply]
  simp only [truncf_apply, divf_apply, Cert.Keepdims.broadcastTo_a1_ab_apply, maximumf_apply, broadcast_apply]
  rfl

/-- A stored block is a block of rows of the whole output. Let the block `x0` be rows `o … o + 4999` of the aggregated
    features `S` and `x1` the same rows of the degree column `Dc`, the weights and the bias whole. Then the stored
    entry `j` is the whole layer's entry `i`, where `i` is `j` moved down by `o` rows. -/
theorem block_entry (S : (⟨2, ![100000, 64]⟩ : Shape).Idx → EReal) (Dc : (⟨2, ![100000, 1]⟩ : Shape).Idx → EReal)
    (W : (⟨2, ![64, 64]⟩ : Shape).Idx → EReal) (b : (⟨1, ![64]⟩ : Shape).Idx → EReal)
    (x0 : FVec Ideal S5000x64 .f32) (x1 : FVec Ideal S5000x1 .f32) (x2 : FVec Ideal S64x64 .f32) (x3 : FVec Ideal S64 .f32) (o : ℕ)
    (h0 : ∀ (p : Fin 5000) (k : Fin 64) (r : Fin 100000), r.val = o + p.val → x0 (ix2 p k) = S (ix2 r k))
    (h1 : ∀ (p : Fin 5000) (r : Fin 100000), r.val = o + p.val → x1 (ix2 p (0 : Fin 1)) = Dc (ix2 r (0 : Fin 1)))
    (h2 : x2 = W) (h3 : x3 = b)
    (j : (⟨2, ![5000, 64]⟩ : Shape).Idx) (i : (⟨2, ![100000, 64]⟩ : Shape).Idx)
    (hi0 : (i 0).val = o + (j 0).val) (hi1 : (i 1).val = (j 1).val) :
    k0_pay1 (F := Ideal) x0 x1 x2 x3 j = Cert.GcnHead.layerCol S Dc W b i := by
  subst h2 h3
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  rw [pay_apply, Cert.GcnHead.layerCol_apply]
  exact Cert.GcnHead.entry_congr _ _ _ _ _ _ p r q' (fun k => h0 p k r hi0) (h1 p r hi0)

end Cert.KernelIdeal.Payload

end
-- ==== Proof.Whole.lean ====
/-
  From the stored blocks to the whole output array.

  The launch has 20 grid points. Point `t` stages rows `5000·t … 5000·t + 4999` of the aggregated features and of
  the degree column, the whole weight matrix and the whole bias, and writes back rows `5000·t … 5000·t + 4999` of
  the output. By the entry lemma of the body, what point `t` writes back is that block of rows of ONE function of
  the arrays the launch finds: the layer's output matrix. The 20 blocks of rows cover the 100000 rows (row `r` lies
  in block `r / 5000`), so after the run the output array is the layer's output matrix.
-/
import proofs.«132022_j35579509080730_2_alg».proof.Proof.Gen.KernelIdeal.Value
import proofs.«132022_j35579509080730_2_alg».proof.Proof.Payload
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The block indices of the five windows at point `t`, decided over the 20 points: the row blocks of the two node
    arrays and of the output move with the point, the weights and the bias stay at block 0. -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-! ## A window's block read at an entry

Each window's block at a point is its array read through a unit-stride rectangle: entry `y` of the block is the array's
entry at block index × block size + `y` on every axis. Stated once per window over an arbitrary array `A` and arbitrary
indices, so that nothing about the arrays' contents is ever looked at. -/

theorem read0 (c : Dev nD) (t : Fin cfg0.N) (A : (b : Ref sig Kind.tc) → Buf (Elt Ideal) ((c : Thread nD τ).loc b)) (y : S5000x64.Idx) :
    ((cfg0.win 0).blk t).view.read (Elt Ideal) (A (Pipeline.arrRef spec0 0)) y = A main_v16 (((cfg0.win 0).blk t).view.emb y) := rfl

theorem read1 (c : Dev nD) (t : Fin cfg0.N) (A : (b : Ref sig Kind.tc) → Buf (Elt Ideal) ((c : Thread nD τ).loc b)) (y : S5000x1.Idx) :
    ((cfg0.win 1).blk t).view.read (Elt Ideal) (A (Pipeline.arrRef spec0 1)) y = A main_v26 (((cfg0.win 1).blk t).view.emb y) := rfl

theorem read2 (c : Dev nD) (t : Fin cfg0.N) (A : (b : Ref sig Kind.tc) → Buf (Elt Ideal) ((c : Thread nD τ).loc b)) (y : S64x64.Idx) :
    ((cfg0.win 2).blk t).view.read (Elt Ideal) (A (Pipeline.arrRef spec0 2)) y = A main_arg3 (((cfg0.win 2).blk t).view.emb y) := rfl

theorem read3 (c : Dev nD) (t : Fin cfg0.N) (A : (b : Ref sig Kind.tc) → Buf (Elt Ideal) ((c : Thread nD τ).loc b)) (y : S64.Idx) :
    ((cfg0.win 3).blk t).view.read (Elt Ideal) (A (Pipeline.arrRef spec0 3)) y = A main_arg4 (((cfg0.win 3).blk t).view.emb y) := rfl

theorem read4 (t : Fin cfg0.N) (R : S100000x64.Idx → EReal) (y : S5000x64.Idx) :
    ((cfg0.win 4).blk t).view.read (Elt Ideal) R y = R (((cfg0.win 4).blk t).view.emb y) := rfl

theorem emb0 (t : Fin cfg0.N) (y : S5000x64.Idx) (i : S100000x64.Idx) (h0 : (i 0).val = 5000 * t.val + (y 0).val) (h1 : (i 1).val = (y 1).val) :
    ((cfg0.win 0).blk t).view.emb y = i := by
  obtain ⟨e0, e1, -⟩ := block_indices t
  funext a
  apply Fin.ext
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

theorem emb1 (t : Fin cfg0.N) (y : S5000x1.Idx) (i : S100000x1.Idx) (h0 : (i 0).val = 5000 * t.val + (y 0).val) :
    ((cfg0.win 1).blk t).view.emb y = i := by
  obtain ⟨-, -, e0, e1, -⟩ := block_indices t
  funext a
  apply Fin.ext
  match a with
  | ⟨0, _⟩ => show win0_1.index t (0 : Fin 2) * 5000 + 1 * (y 0).val = (i 0).val; rw [e0, h0]; omega
  | ⟨1, _⟩ =>
    show win0_1.index t (1 : Fin 2) * 1 + 1 * (y 1).val = (i 1).val
    have hy : (y 1).val < 1 := (y 1).isLt
    have hi : (i 1).val < 1 := (i 1).isLt
    rw [e1]; omega

theorem emb2 (t : Fin cfg0.N) (y : S64x64.Idx) : ((cfg0.win 2).blk t).view.emb y = y := by
  obtain ⟨-, -, -, -, e0, e1, -⟩ := block_indices t
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

theorem emb3 (t : Fin cfg0.N) (y : S64.Idx) : ((cfg0.win 3).blk t).view.emb y = y := by
  obtain ⟨-, -, -, -, -, -, e0, -⟩ := block_indices t
  funext a
  apply Fin.ext
  match a with
  | ⟨0, _⟩ => show win0_3.index t (0 : Fin 1) * 64 + 1 * (y 0).val = (y 0).val; rw [e0]; omega

theorem emb4_row (t : Fin cfg0.N) (y : S5000x64.Idx) :
    ((((cfg0.win 4).blk t).view.emb y : S100000x64.Idx) 0).val = 5000 * t.val + (y 0).val := by
  obtain ⟨-, -, -, -, -, -, -, e0, -⟩ := block_indices t
  show win0_4.index t (0 : Fin 2) * 5000 + 1 * (y 0).val = _
  rw [e0]; omega

theorem emb4_col (t : Fin cfg0.N) (y : S5000x64.Idx) :
    ((((cfg0.win 4).blk t).view.emb y : S100000x64.Idx) 1).val = (y 1).val := by
  obtain ⟨-, -, -, -, -, -, -, -, e1⟩ := block_indices t
  show win0_4.index t (1 : Fin 2) * 64 + 1 * (y 1).val = _
  rw [e1]; omega

/-- The block of aggregated rows at point `t`: its row `p` is row `5000·t + p` of the array. -/
theorem rows_block (c : Dev nD) (t : Fin cfg0.N) (p : Fin 5000) (k : Fin 64) (r : Fin 100000) (hr : r.val = 5000 * t.val + p.val) :
    (iblk m c 0 t : Vec Ideal S5000x64 .f32) (ix2 p k) = (V m c main_v16 : S100000x64.Idx → EReal) (ix2 r k) := by
  unfold iblk
  generalize V m c = A
  exact (read0 c t A (ix2 p k)).trans (congrArg (A main_v16) (emb0 t (ix2 p k) (ix2 r k) hr rfl))

/-- The block of the degree column at point `t`: its row `p` is row `5000·t + p` of the column. -/
theorem degree_block (c : Dev nD) (t : Fin cfg0.N) (p : Fin 5000) (r : Fin 100000) (hr : r.val = 5000 * t.val + p.val) :
    (iblk m c 1 t : Vec Ideal S5000x1 .f32) (ix2 p (0 : Fin 1)) = (V m c main_v26 : S100000x1.Idx → EReal) (ix2 r (0 : Fin 1)) := by
  unfold iblk
  generalize V m c = A
  exact (read1 c t A (ix2 p (0 : Fin 1))).trans (congrArg (A main_v26) (emb1 t (ix2 p (0 : Fin 1)) (ix2 r (0 : Fin 1)) hr))

/-- The weights' one block is the whole matrix. -/
theorem weights_block (c : Dev nD) (t : Fin cfg0.N) :
    (iblk m c 2 t : Vec Ideal S64x64 .f32) = (V m c main_arg3 : S64x64.Idx → EReal) := by
  unfold iblk
  generalize V m c = A
  funext y
  exact (read2 c t A y).trans (congrArg (A main_arg3) (emb2 t y))

/-- The bias's one block is the whole vector. -/
theorem bias_block (c : Dev nD) (t : Fin cfg0.N) :
    (iblk m c 3 t : Vec Ideal S64 .f32) = (V m c main_arg4 : S64.Idx → EReal) := by
  unfold iblk
  generalize V m c = A
  funext y
  exact (read3 c t A y).trans (congrArg (A main_arg4) (emb3 t y))

/-- The layer's output matrix of the arrays the launch finds. -/
abbrev result (c : Dev nD) : S100000x64.Idx → EReal :=
  Cert.GcnHead.layerCol (V m c main_v16) (V m c main_v26) (V m c main_arg3) (V m c main_arg4)

/-- What point `t` writes back is block `t` of the layer's output matrix. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zero2]
  simp only [View.ld_unit_zero (S := S5000x64) zero2, View.ld_unit_zero (S := S5000x1) zero2,
    View.ld_unit_zero (S := S64x64) zero2, View.ld_unit_zero (S := S64) zero1]
  funext j
  refine Eq.trans ?_ (read4 t (result m c) j).symm
  exact Cert.KernelIdeal.Payload.block_entry (V m c main_v16) (V m c main_v26) (V m c main_arg3) (V m c main_arg4)
    (iblk m c 0 t) (iblk m c 1 t) (iblk m c 2 t) (iblk m c 3 t) (5000 * t.val)
    (fun p k r hr => rows_block m c t p k r hr) (fun p r hr => degree_block m c t p r hr)
    (weights_block m c t) (bias_block m c t) j (((cfg0.win 4).blk t).view.emb j) (emb4_row t j) (emb4_col t j)

/-- An index of the output array is in point `t`'s block iff each coordinate is in the block's range on its axis. -/
theorem mem_block (t : Fin cfg0.N) (i : S100000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v27).slice (win0_4.rect t)).set ↔ _
  rw [View.set_slice_whole, Rect.mem_set_unit]
  exact Iff.rfl

/-- Every row of the output lies in some point's block: row `r` in block `r / 5000`. -/
theorem covered (i : S100000x64.Idx) :
    ∃ t : Fin cfg0.N, (cfg0.win 4).flush t = true ∧ i ∈ ((cfg0.win 4).blk t).view.set := by
  have hN : grid0.N = 20 := N_0
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show _ < grid0.N; rw [hN]; omega⟩, rfl⟩
  obtain ⟨-, -, -, -, -, -, -, e0, e1⟩ := block_indices t
  refine ⟨t, flush0_4 t, ?_⟩
  rw [mem_block]
  intro a
  match a with
  | ⟨0, _⟩ =>
    show win0_4.index t (0 : Fin 2) * 5000 ≤ (i 0).val ∧ (i 0).val < win0_4.index t (0 : Fin 2) * 5000 + 5000
    rw [e0, ht]; omega
  | ⟨1, _⟩ =>
    show win0_4.index t (1 : Fin 2) * 64 ≤ (i 1).val ∧ (i 1).val < win0_4.index t (1 : Fin 2) * 64 + 64
    rw [e1]; omega

/-- After the run the output array is the layer's output matrix. -/
theorem final (c : Dev nD) : (dats m 0 c).arrAt 4 cfg0.N = result m c :=
  (dats m 0 c).arrAt_eq_of_cover 4 (result m c) (fun t _ => flushed_eq m c t) covered

/-- The kernel's run, read: the output array at the layer's output matrix of the arrays the launch finds, the arguments
    unchanged. -/
theorem run : θ_run defs (onTc (τ := τ) (main (F := Ideal))) ⟨m, fun _ => 0, ρ⟩ fun r => ∀ c : Dev nD,
      r.2.mem ((c : Thread nD τ).loc main_v27) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Whole

end
-- ==== Proof.RefLayer.lean ====
/-
  The reference's result is the layer's output matrix of its own two intermediate arrays.

  After its gather and its two scatters the reference divides the aggregated features by the in-degrees raised to at
  least one (a vector laid along the features as a column), contracts the feature axis of the mean rows with the feature
  axis of the weight matrix, adds the bias laid along the rows and takes the maximum with zero. Read at an entry
  (p, q), stage by stage, that is the layer's entry (p, q) of the aggregated features and the in-degrees — the two
  arrays are carried as they are, nothing of the gather or of the scatters is opened.
-/
import proofs.«132022_j35579509080730_2_alg».proof.Proof.Gen.ReferenceIdeal.Read
import proofs.«132022_j35579509080730_2_alg».proof.Proof.Spec

noncomputable section

open Idealize.ShloMosaic Idealize.ShloMosaic.ValueIdx

namespace Cert.ReferenceIdeal.RefLayer

open Cert.ReferenceIdeal Cert.ReferenceIdeal.Read

/-- Entry (p, q) of the reference's result. -/
theorem ref_entry (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (x4 : (⟨S64, .f32⟩ : BufTy).Contents (Elt Ideal)) (p : Fin 100000) (q : Fin 64) :
    val_main_v23 (F := Ideal) x0 x1 x2 x3 x4 (ix2 p q)
      = Cert.GcnHead.entry (val_main_v9 (F := Ideal) x0 x1 x2) (fun r : Fin 100000 => val_main_v13 (F := Ideal) x2 (ix1 r)) x3 x4 p q := by
  rw [val_main_v23_apply, val_main_v22_apply, val_main_v19_apply, val_main_v21_apply, val_main_v20_apply,
    val_main_call0_v0_apply, val_main_call0_cst_apply]
  -- the contraction reads row p of the mean rows and row q of the weights; the bias is read at q
  have el : ∀ k : Fin 64, lidx_main_v19 (ix2 p q) k = ix2 p k := fun k =>
    funext fun a => Fin.ext (by match a with | ⟨0, _⟩ => rfl | ⟨1, _⟩ => rfl)
  have er : ∀ k : Fin 64, ridx_main_v19 (ix2 p q) k = ix2 q k := fun k =>
    funext fun a => Fin.ext (by match a with | ⟨0, _⟩ => rfl | ⟨1, _⟩ => rfl)
  have eb : idx_main_v20 (idx_main_v21 (ix2 p q)) = ix1 q :=
    funext fun a => Fin.ext (by match a with | ⟨0, _⟩ => rfl)
  -- the divisor at (p, k) is node p's degree raised to at least one, whatever the feature k
  have e17 : ∀ k : Fin 64, val_main_v17 (F := Ideal) x2 (ix2 p k)
      = max (val_main_v13 (F := Ideal) x2 (ix1 p)) (Ideal.ofBits .f32 0x3F800000#32) := fun k => by
    have ei : idx_main_v16 (idx_main_v17 (ix2 p k)) = ix1 p :=
      funext fun a => Fin.ext (by match a with | ⟨0, _⟩ => rfl)
    rw [val_main_v17_apply, val_main_v16_apply, val_main_v15_apply, val_main_v14_apply, val_main_cst_3_apply, ei]
    rfl
  have e18 : ∀ k : Fin 64, val_main_v18 (F := Ideal) x0 x1 x2 (ix2 p k)
      = Ideal.div (val_main_v9 (F := Ideal) x0 x1 x2 (ix2 p k)) (max (val_main_v13 (F := Ideal) x2 (ix1 p)) (Ideal.ofBits .f32 0x3F800000#32)) := fun k => by
    rw [val_main_v18_apply, e17 k]
    rfl
  rw [eb]
  simp only [el, er, e18]
  generalize val_main_v9 (F := Ideal) x0 x1 x2 = S
  generalize val_main_v13 (F := Ideal) x2 = D
  rfl

/-- The reference's result array is the layer's output matrix of its aggregated features and in-degrees. -/
theorem ref_is_layer (x0 : (⟨S100000x64, .f32⟩ : BufTy).Contents (Elt Ideal)) (x1 x2 : (⟨S1200000, .i32⟩ : BufTy).Contents (Elt Ideal))
    (x3 : (⟨S64x64, .f32⟩ : BufTy).Contents (Elt Ideal)) (x4 : (⟨S64, .f32⟩ : BufTy).Contents (Elt Ideal)) :
    val_main_v23 (F := Ideal) x0 x1 x2 x3 x4
      = Cert.GcnHead.layer (val_main_v9 (F := Ideal) x0 x1 x2) (val_main_v13 (F := Ideal) x2) x3 x4 := by
  funext i
  obtain ⟨p, q, rfl⟩ : ∃ (p : Fin 100000) (q : Fin 64), i = ix2 p q := ⟨i 0, i 1, eq_ix2 i⟩
  exact (ref_entry x0 x1 x2 x3 x4 p q).trans (Cert.GcnHead.layer_apply _ _ _ _ p q).symm

end Cert.ReferenceIdeal.RefLayer

end
-- ==== Proof.DegreeColumn.lean ====
/-
  The in-degrees as a vector and as a column give the same layer.

  The kernel receives the in-degrees viewed as a column [100000, 1] (a reshape that keeps the row-major position), the
  reference divides by them as a vector [100000]. Entry (r, 0) of the column is entry r of the vector, so the layer's
  output matrix is the same whichever way the degrees come.
-/
import proofs.«132022_j35579509080730_2_alg».proof.Proof.Spec
import proofs.«132022_j35579509080730_2_alg».proof.Proof.LibKeepdims

noncomputable section

open Idealize.ShloMosaic Idealize.ShloMosaic.ValueIdx

namespace Cert.GcnHead

theorem layerCol_shapeCast (S : (⟨2, ![100000, 64]⟩ : Shape).Idx → EReal) (D : (⟨1, ![100000]⟩ : Shape).Idx → EReal)
    (h : (⟨1, ![100000]⟩ : Shape).ShapeCasts ⟨2, ![100000, 1]⟩)
    (W : (⟨2, ![64, 64]⟩ : Shape).Idx → EReal) (b : (⟨1, ![64]⟩ : Shape).Idx → EReal) :
    layerCol S (shapeCast ⟨2, ![100000, 1]⟩ D h) W b = layer S D W b := by
  funext i
  unfold layerCol layer
  exact entry_congr _ _ _ _ _ _ (i 0) (i 0) (i 1) (fun _ => rfl) (Cert.Keepdims.shapeCast_a_a1_apply D h (i 0) 0)

end Cert.GcnHead

end
-- ==== Proof.lean ====
/-
  A graph-convolution layer with mean aggregation, a linear layer and a relu: a tiled kernel against a plain reference.

  Both programs first aggregate on the host: for every edge the feature row of the source node is added into the row of
  the destination node (the aggregated features, [100000, 64]) and a one into the destination's in-degree ([100000]).
  The kernel then runs over 20 blocks of 5000 nodes; on a block it divides the aggregated rows by the in-degrees raised
  to at least one, multiplies the mean rows with the weight matrix (stored output row by output row), adds the bias and
  takes the maximum with zero. The reference does the same on whole arrays. On the extended reals the two results are
  the same function of the aggregated features, the in-degrees, the weights and the bias, entry by entry:

      out (p, q) = max ( Σ_k (S (p, k) / max (D p) 1) · W (q, k) + b q , 0 ),

  and no rearrangement of the expression is needed — neither program moves a factor across the sum —, so no
  finiteness is used. What is used is that every destination index is non-negative: the kernel's host program wraps a
  negative destination index `d` to `d + 100000` before scattering, the reference scatters by `d` as it stands (and a
  negative index is dropped there), so the two aggregations agree exactly where no destination index is negative
  (`Domain.lean`, `HostSide.lean`). Under that condition the two host parts produce the same two arrays, whole, and no
  entry of a gather or a scatter is ever read.

  The pieces: `Spec.lean` — the layer's entry and output matrix; `Payload.lean` — the kernel body's stored block at an
  entry; `Whole.lean` — the 20 stored blocks are the layer's output matrix of the arrays the launch finds;
  `HostSide.lean` — those arrays are the reference's; `RefLayer.lean` — the reference's result is the layer's output
  matrix; `DegreeColumn.lean` — degrees as a column or as a vector. The kernel at the word level and the idealized
  kernel are the same program up to the reading of its floats (nothing was rewritten), so that conjunct is trivial.
-/
import proofs.«132022_j35579509080730_2_alg».proof.Defs
import proofs.«132022_j35579509080730_2_alg».proof.Proof.Gen.Kernel
import proofs.«132022_j35579509080730_2_alg».proof.Proof.Gen.Kernel.Skeleton
import proofs.«132022_j35579509080730_2_alg».proof.Proof.Gen.Kernel.Launch
import proofs.«132022_j35579509080730_2_alg».proof.Proof.Gen.Kernel.Points
import proofs.«132022_j35579509080730_2_alg».proof.Proof.Gen.Kernel.Frame
import proofs.«132022_j35579509080730_2_alg».proof.Proof.Gen.KernelIdeal
import proofs.«132022_j35579509080730_2_alg».proof.Proof.Gen.KernelIdeal.Skeleton
import proofs.«132022_j35579509080730_2_alg».proof.Proof.Gen.KernelIdeal.Launch
import proofs.«132022_j35579509080730_2_alg».proof.Proof.Gen.KernelIdeal.Points
import proofs.«132022_j35579509080730_2_alg».proof.Proof.Gen.KernelIdeal.Frame
import proofs.«132022_j35579509080730_2_alg».proof.Proof.Gen.KernelIdeal.Value
import proofs.«132022_j35579509080730_2_alg».proof.Proof.Gen.ReferenceIdeal
import proofs.«132022_j35579509080730_2_alg».proof.Proof.Gen.ReferenceIdeal.Run
import proofs.«132022_j35579509080730_2_alg».proof.Proof.Gen.ReferenceIdeal.Read
import proofs.«132022_j35579509080730_2_alg».proof.Proof.Gen.Pre_finite_inputs
import proofs.«132022_j35579509080730_2_alg».proof.Proof.Domain
import proofs.«132022_j35579509080730_2_alg».proof.Proof.HostSide
import proofs.«132022_j35579509080730_2_alg».proof.Proof.Whole
import proofs.«132022_j35579509080730_2_alg».proof.Proof.RefLayer
import proofs.«132022_j35579509080730_2_alg».proof.Proof.DegreeColumn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to its idealized form. -/
theorem preserves : Cert.preserves_Kernel_KernelIdeal := trivial

/-- The kernel's output array ends at the layer's output matrix of the arrays its launch finds; those arrays are the
    reference's aggregated features and in-degrees when no destination index is negative; and the reference's result is
    the layer's output matrix of them. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  have hdst := Cert.Pre_finite_inputs.Domain.dst_nonneg _ _ _ _ _ (hpre c)
  rw [a0, a1, a2, a3, a4, Cert.ReferenceIdeal.Read.val_main_v23_eq, Cert.ReferenceIdeal.RefLayer.ref_is_layer]
  show _ = Cert.GcnHead.layerCol (Cert.KernelIdeal.Gen.V m c Cert.KernelIdeal.main_v16) (Cert.KernelIdeal.Gen.V m c Cert.KernelIdeal.main_v26)
    (Cert.KernelIdeal.Gen.V m c Cert.KernelIdeal.main_arg3) (Cert.KernelIdeal.Gen.V m c Cert.KernelIdeal.main_arg4)
  rw [Cert.KernelIdeal.HostSide.V_summed, Cert.KernelIdeal.HostSide.V_degree, Cert.KernelIdeal.Gen.V_main_arg3,
    Cert.KernelIdeal.Gen.V_main_arg4, Cert.KernelIdeal.HostSide.summed_eq_ref _ _ _ hdst,
    Cert.KernelIdeal.HostSide.degree_eq_ref _ hdst]
  exact (Cert.GcnHead.layerCol_shapeCast _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
